-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S16x128 : Shape := ⟨2, ![16, 128]⟩
abbrev S128x8192 : Shape := ⟨2, ![128, 8192]⟩
abbrev S8x128 : Shape := ⟨2, ![8, 128]⟩
abbrev S1x1 : Shape := ⟨2, ![1, 1]⟩
abbrev S1x128x8192 : Shape := ⟨3, ![1, 128, 8192]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x8192_S128x8192_0_0 : ∀ a, (![0, 0] : Fin 2 → Nat) a + S128x8192.size a ≤ S128x8192.size a
  h_S128x8192 : 0 < S128x8192.numel
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096x8192, .f32⟩
  | .hbm, ⟨3, _⟩ => ⟨S_, .i32⟩
  | .hbm, ⟨4, _⟩ => ⟨S4096x8192, .i32⟩
  | .hbm, ⟨5, _⟩ => ⟨S4096x8192, .i1⟩
  | .hbm, ⟨6, _⟩ => ⟨S_, .i32⟩
  | .hbm, ⟨7, _⟩ => ⟨S4096x8192, .i32⟩
  | .hbm, ⟨8, _⟩ => ⟨S4096x8192, .i1⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_2 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.Pieces.lean ====
/-
  What one run of the kernel body leaves behind, read back as values.

  The body keeps a running sum in a one-element scratch. At the first point of a half it stores zero there, reads it
  back and stores the sum of zero and the block's sum; at every later point it stores the sum of what the point before
  left and the block's sum; at the last point of a half it also fills the output block with the scratch's element.
  Each store covers its whole buffer, so what a buffer holds after the body is the last store's value, a function of
  the two input blocks and of the scratch's contents before.
-/
import proofs.«120981_j29695403885106_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- At the first point of a half: the scratch ends at the running-sum step applied to the zero it was reset to. -/
theorem scratch_first (c : Dev nD) (i : grid0.Coords) (a2 : Memref sig .tc .vmem S128x8192 .f32) (h2 : a2.IsWhole)
    (a3 : Memref sig .tc .vmem S128x8192 .i32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 : Vec F S128x8192 .f32) (x1 : Vec F S128x8192 .i32) :
    sout0_A_0 c i a2 h2 a3 h3 a4 h4 a5 h5 hc0 hc1 x0 x1 = k0_pay2 x1 x0 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) zero_offsets]
  simp only [View.readAt_eq_ld, h2.read_unread, h3.read_unread, h5.read_unread, View.ld_unit_zero (S := S128x8192) zero_offsets,
    View.ld_unit_zero (S := S1x1) zero_offsets, View.readCov_unit_zero (S := S1x1) _ zero_offsets]

/-- At a middle point of a half: the scratch ends at the running-sum step applied to what it held before. -/
theorem scratch_middle (c : Dev nD) (i : grid0.Coords) (a2 : Memref sig .tc .vmem S128x8192 .f32) (h2 : a2.IsWhole)
    (a3 : Memref sig .tc .vmem S128x8192 .i32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 : Vec F S128x8192 .f32) (x1 : Vec F S128x8192 .i32) (xs0 : Vec F S1x1 .f32) :
    sout0_B_0 c i a2 h2 a3 h3 a4 h4 a5 h5 hc0 hc1 x0 x1 xs0 = k0_pay2 x1 x0 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero zero_offsets]
  simp only [View.readAt_eq_ld, h2.read_unread, h3.read_unread, h5.read_unread, View.ld_unit_zero (S := S128x8192) zero_offsets,
    View.ld_unit_zero (S := S1x1) zero_offsets]

/-- At the last point of a half the scratch takes the same step, -/
theorem scratch_last (c : Dev nD) (i : grid0.Coords) (a2 : Memref sig .tc .vmem S128x8192 .f32) (h2 : a2.IsWhole)
    (a3 : Memref sig .tc .vmem S128x8192 .i32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 : Vec F S128x8192 .f32) (x1 : Vec F S128x8192 .i32) (xs0 : Vec F S1x1 .f32) :
    sout0_C_0 c i a2 h2 a3 h3 a4 h4 a5 h5 hc0 hc1 x0 x1 xs0 = k0_pay2 x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero zero_offsets]
  simp only [View.readAt_eq_ld, h2.read_unread, h3.read_unread, h5.read_unread, View.ld_unit_zero (S := S128x8192) zero_offsets,
    View.ld_unit_zero (S := S1x1) zero_offsets]

/-- and the output block is filled with the element the scratch then holds. -/
theorem output_last (c : Dev nD) (i : grid0.Coords) (a2 : Memref sig .tc .vmem S128x8192 .f32) (h2 : a2.IsWhole)
    (a3 : Memref sig .tc .vmem S128x8192 .i32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 : Vec F S128x8192 .f32) (x1 : Vec F S128x8192 .i32) (xs0 : Vec F S1x1 .f32) :
    out0_C_2 c i a2 h2 a3 h3 a4 h4 a5 h5 hc0 hc1 x0 x1 xs0 = k0_pay3 (k0_pay2 x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero zero_offsets]
  simp only [View.readAt_eq_ld, h2.read_unread, h3.read_unread, h5.read_unread, View.ld_unit_zero (S := S128x8192) zero_offsets,
    View.ld_unit_zero (S := S1x1) zero_offsets, View.readCov_unit_zero (S := S1x1) _ zero_offsets]

end Cert.KernelIdeal.Pieces

end
-- ==== Proof.Spec.lean ====
/-
  The mathematics of the weighted squared-error loss, with no program in sight.

  Every element contributes `(w(l) · (x − l))²`, where the weight `w(l)` is 5 on label 1, 3 on label 2 and 1 on every other
  label, `x` is the norm and `l` the label read as a signed integer. The reference spells the same element
  `(w(l)·x − w(l)·l)²`; the two agree whenever `x` is a real number (distributivity fails on the extended reals only at
  the infinities, which the finiteness precondition excludes).

  The kernel adds the elements of one block of 128 rows, then the sixteen blocks of one half of the rows, then the two
  halves; the reference adds all 4096 × 8192 elements at once. Addition of extended reals is commutative and associative, so
  both are the one sum: the regrouping lemmas below say so over any commutative monoid.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-! ## The constants -/

theorem five : Ideal.ofBits .f32 0x40A00000#32 = ((5 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

/-! ## One element -/

/-- The weight of a label: 5 on label 1, 3 on label 2, 1 otherwise. -/
def weight (l : BitVec 32) : EReal :=
  Scalar.select (IntOp.cmpi .eq l 1#32) (Ideal.ofBits .f32 0x40A00000#32)
    (Scalar.select (IntOp.cmpi .eq l 2#32) (Ideal.ofBits .f32 0x40400000#32) (Ideal.ofBits .f32 0x3F800000#32))

/-- The label as a number: the word read signed. -/
def labelVal (l : BitVec 32) : EReal := ((l.toInt : ℝ) : EReal)

/-- One element of the loss as the kernel computes it: the weighted difference, squared. -/
def elem (x : EReal) (l : BitVec 32) : EReal := (weight l * (x - labelVal l)) * (weight l * (x - labelVal l))

/-- One element as the reference computes it: the difference of the weighted terms, squared. -/
def elemRef (x : EReal) (l : BitVec 32) : EReal :=
  (weight l * x - weight l * labelVal l) * (weight l * x - weight l * labelVal l)

/-- The weight is always a real number. -/
theorem weight_real (l : BitVec 32) : ∃ r : ℝ, weight l = (r : EReal) := by
  unfold weight Scalar.select
  split
  · exact ⟨5, five⟩
  · split
    · exact ⟨3, three⟩
    · exact ⟨1, one⟩

/-- On a real norm the weight distributes over the difference, so the two spellings of an element agree. -/
theorem elemRef_eq_elem (x : ℝ) (l : BitVec 32) : elemRef (x : EReal) l = elem (x : EReal) l := by
  obtain ⟨r, hr⟩ := weight_real l
  unfold elemRef elem labelVal
  rw [hr]
  have e : (r : EReal) * (x : EReal) - (r : EReal) * (((l.toInt : ℝ)) : EReal) = (r : EReal) * ((x : EReal) - ((l.toInt : ℝ) : EReal)) := by
    rw [← EReal.coe_mul, ← EReal.coe_mul, ← EReal.coe_sub, ← EReal.coe_sub, ← EReal.coe_mul, mul_sub]
  rw [e]

/-! ## Regrouping the sum -/

variable {M : Type*} [AddCommMonoid M]

/-- Row `p` of block `t` is row `128 t + p` of the array: the 4096 rows are 32 blocks of 128. -/
def rowEquiv : Fin 32 × Fin 128 ≃ Fin 4096 where
  toFun x := ⟨128 * x.1.val + x.2.val, by have := x.1.isLt; have := x.2.isLt; omega⟩
  invFun a := (⟨a.val / 128, by have := a.isLt; omega⟩, ⟨a.val % 128, Nat.mod_lt _ (by decide)⟩)
  left_inv x := by
    have h1 := x.1.isLt; have h2 := x.2.isLt
    apply Prod.ext <;> apply Fin.ext <;> dsimp only <;> omega
  right_inv a := by apply Fin.ext; dsimp only; omega

/-- An index of a block of 128 rows, placed in the array: block `t`'s row `y₀` is row `128 t + y₀`, the column is kept. -/
def blockIdx (t : Fin 32) (y : (⟨2, ![128, 8192]⟩ : Shape).Idx) : (⟨2, ![4096, 8192]⟩ : Shape).Idx :=
  ix2 (rowEquiv (t, ⟨(y 0).val, idx2_lt0 y⟩)) ⟨(y 1).val, idx2_lt1 y⟩

/-- The sum over the whole array is the sum, over the 32 blocks, of each block's sum. -/
theorem sum_blocks (g : (⟨2, ![4096, 8192]⟩ : Shape).Idx → M) :
    ∑ j, g j = ∑ t : Fin 32, ∑ y : (⟨2, ![128, 8192]⟩ : Shape).Idx, g (blockIdx t y) := by
  rw [sum_idx2 g, ← Equiv.sum_comp rowEquiv (fun a => ∑ b : Fin 8192, g (ix2 a b)), Fintype.sum_prod_type]
  refine Finset.sum_congr rfl fun t _ => ?_
  rw [sum_idx2 (fun y => g (blockIdx t y))]
  rfl

/-- The points of one half's run up to point `n`: those from the run's first point `16·(n / 16)` to `n`. -/
def runUpTo (n : ℕ) : Finset (Fin 32) := Finset.univ.filter fun t => 16 * (n / 16) ≤ t.val ∧ t.val ≤ n

/-- At the first point of a run the run so far is that point alone. -/
theorem runUpTo_first (n : ℕ) (h : n < 32) (h0 : n % 16 = 0) : runUpTo n = {⟨n, h⟩} := by
  ext t
  simp only [runUpTo, Finset.mem_filter, Finset.mem_univ, true_and, Finset.mem_singleton, Fin.ext_iff]
  omega

/-- At a later point the run so far is the run up to the point before, and this point, which is new. -/
theorem runUpTo_succ (n : ℕ) (h : n + 1 < 32) (h0 : ¬(n + 1) % 16 = 0) :
    runUpTo (n + 1) = insert ⟨n + 1, h⟩ (runUpTo n) ∧ (⟨n + 1, h⟩ : Fin 32) ∉ runUpTo n := by
  constructor
  · ext t
    simp only [runUpTo, Finset.mem_filter, Finset.mem_univ, true_and, Finset.mem_insert, Fin.ext_iff]
    omega
  · simp only [runUpTo, Finset.mem_filter, Finset.mem_univ, true_and]
    omega

/-- The sum over a run, one point further. -/
theorem sum_runUpTo_succ (B : Fin 32 → M) (n : ℕ) (h : n + 1 < 32) (h0 : ¬(n + 1) % 16 = 0) :
    ∑ t ∈ runUpTo (n + 1), B t = ∑ t ∈ runUpTo n, B t + B ⟨n + 1, h⟩ := by
  obtain ⟨e, hn⟩ := runUpTo_succ n h h0
  rw [e, Finset.sum_insert hn, add_comm]

/-- The two halves' runs, complete, are all 32 points. -/
theorem sum_two_runs (B : Fin 32 → M) : ∑ t ∈ runUpTo 15, B t + ∑ t ∈ runUpTo 31, B t = ∑ t, B t := by
  have e1 : runUpTo 15 = Finset.univ.filter fun t : Fin 32 => t.val < 16 := by
    ext t; simp only [runUpTo, Finset.mem_filter, Finset.mem_univ, true_and]; omega
  have e2 : runUpTo 31 = Finset.univ.filter fun t : Fin 32 => ¬t.val < 16 := by
    ext t; simp only [runUpTo, Finset.mem_filter, Finset.mem_univ, true_and]; have := t.isLt; omega
  rw [e1, e2, Finset.sum_filter_add_sum_filter_not]

end Cert.Loss

end
-- ==== Proof.Payload.lean ====
/-
  The body's arithmetic read at the extended reals, one element at a time.

  The running-sum step adds, to the scratch's element, the sum over the whole 128 × 8192 block of the loss elements
  `(w(l) · (x − l))²` (the block reduction is a sum over every index of the block; recasting the block as 1 × 128 × 8192
  only renames the indices). The reset stores the real number zero, and the final fill copies the scratch's one
  element to every position of the output block.
-/
import proofs.«120981_j29695403885106_2_alg».proof.Proof.Gen.KernelIdeal.Skeleton
import proofs.«120981_j29695403885106_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Payload

open Cert.KernelIdeal Cert.KernelIdeal.Gen

/-- A 1 × 1 array has one index. -/
theorem idx11_eq (a b : (⟨2, ![1, 1]⟩ : Shape).Idx) : a = b := by
  funext d
  apply Fin.ext
  have := idx2_lt0 a; have := idx2_lt0 b; have := idx2_lt1 a; have := idx2_lt1 b
  match d with
  | ⟨0, _⟩ => show (a 0).val = (b 0).val; omega
  | ⟨1, _⟩ => show (a 1).val = (b 1).val; omega

/-- The block reduction into a one-element vector is the sum over every index of the block. -/
theorem reduce_block (src : FVec Ideal S1x128x8192 .f32) (hφ : FKind.Formats FTy.f32)
    (hacc : (0x00000000#32 : BitVec FTy.f32.bits) = FKind.add.neutral .f32 hφ) (i : S1.Idx) :
    multiReduction .add [1, 2] S1 src (0x00000000#32) reduces_S1x128x8192_S1 hφ hacc i = ∑ k : S1x128x8192.Idx, src k :=
  Ideal.multiReduction_add_total src _ reduces_S1x128x8192_S1 (fun b => match b with | ⟨0, _⟩ => rfl) hφ hacc i

/-- The running-sum step: the scratch's element plus the block's sum of loss elements. -/
theorem step_apply (v3 : Vec Ideal S128x8192 .i32) (v4 : Vec Ideal S128x8192 .f32) (v22 : Vec Ideal S1x1 .f32) (j : S1x1.Idx) :
    k0_pay2 (F := Ideal) v3 v4 v22 j = v22 j + ∑ y : S128x8192.Idx, Cert.Loss.elem (v4 y) (v3 y) := by
  unfold k0_pay2
  dsimp only
  rw [shapeCast_self, addf_apply, broadcast_apply]
  refine congrArg (v22 j + ·) ?_
  unfold extractAt shapeCast
  refine (reduce_block _ _ _ _).trans ?_
  refine (Equiv.sum_comp (Shape.reshapeEquiv shapeCasts_S128x8192_S1x128x8192) _).trans ?_
  exact Finset.sum_congr rfl fun y _ => rfl

/-- The reset value is the real number zero. -/
theorem reset_apply (j : S1x1.Idx) : k0_pay1 (F := Ideal) j = 0 := by
  unfold k0_pay1
  rw [shapeCast_self]
  exact Ideal.ofBits_zero_f32

/-- The first step of a half starts from the reset value zero: the scratch ends at the block's sum. -/
theorem step_first (x0 : Vec Ideal S128x8192 .f32) (x1 : Vec Ideal S128x8192 .i32) :
    k0_pay2 (F := Ideal) x1 x0 (k0_pay1 (F := Ideal)) = fun _ => ∑ y : S128x8192.Idx, Cert.Loss.elem (x0 y) (x1 y) := by
  funext j
  rw [step_apply, reset_apply, zero_add]

/-- A later step, from a scratch holding `s`: the scratch ends at `s` plus the block's sum. -/
theorem step_next (x0 : Vec Ideal S128x8192 .f32) (x1 : Vec Ideal S128x8192 .i32) (xs : Vec Ideal S1x1 .f32) (s : EReal)
    (hs : xs = fun _ => s) :
    k0_pay2 (F := Ideal) x1 x0 xs = fun _ => s + ∑ y : S128x8192.Idx, Cert.Loss.elem (x0 y) (x1 y) := by
  subst hs
  funext j
  rw [step_apply]

/-- The final fill: every position of the output block takes the scratch's element. -/
theorem fill_apply (v31 : Vec Ideal S1x1 .f32) (y : S8x128.Idx) (j : S1x1.Idx) :
    k0_pay3 (F := Ideal) v31 y = v31 j := by
  unfold k0_pay3
  show v31 _ = v31 j
  exact congrArg v31 (idx11_eq _ _)

end Cert.KernelIdeal.Payload

end
-- ==== Proof.Accumulate.lean ====
/-
  The running sum across the grid.

  Point `n` of the grid (32 points: two halves of sixteen) reads the block of rows `128 n … 128 n + 127`. Within a half
  the scratch is reset at the first point and then carried, so after point `n` it holds the sum of the block sums of
  the points of `n`'s half up to `n`. At the last point of a half the output block is filled with that sum. Both facts
  follow by induction on the point from the three cases' values.
-/
import proofs.«120981_j29695403885106_2_alg».proof.Proof.Pieces
import proofs.«120981_j29695403885106_2_alg».proof.Proof.Payload
import proofs.«120981_j29695403885106_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The sum of the loss elements over the block of norms and labels that point `n` reads. -/
def blockSum (c : Dev nD) (n : ℕ) (h : n < cfg0.N) : EReal :=
  ∑ y : S128x8192.Idx, Cert.Loss.elem ((iblk m c 0 ⟨n, h⟩ : Vec Ideal S128x8192 .f32) y) ((iblk m c 1 ⟨n, h⟩ : Vec Ideal S128x8192 .i32) y)

/-- The same, indexed by the 32 points. -/
def blockSums (c : Dev nD) (t : Fin 32) : EReal := blockSum m c t.val (lt_of_lt_of_eq t.isLt N_0.symm)

/-- The sum of the block sums of the points of `n`'s half up to `n`. -/
def runSum (c : Dev nD) (n : ℕ) : EReal := ∑ t ∈ Cert.Loss.runUpTo n, blockSums m c t

/-- After point `n` the scratch holds the running sum of `n`'s half. -/
theorem scratch_after (c : Dev nD) : ∀ (n : ℕ) (h : n < cfg0.N), (outsAt0 m c n h).2 = fun _ => runSum m c n
  | 0, h => by
    have h0 : (⟨0, h⟩ : Fin cfg0.N).val % 16 = 0 := rfl
    have h1 : ¬(⟨0, h⟩ : Fin cfg0.N).val % 16 = 15 := by show ¬(0 : ℕ) % 16 = 15; decide
    rw [outsAt0_A m c ⟨0, h⟩ h0 h1]
    dsimp only
    refine (Pieces.scratch_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr h0) (fun h' => h1 ((hcond0_1 ⟨0, h⟩).mp h'))
      (iblk m c 0 ⟨0, h⟩) (iblk m c 1 ⟨0, h⟩)).trans ?_
    refine (Payload.step_first (iblk m c 0 ⟨0, h⟩) (iblk m c 1 ⟨0, h⟩)).trans ?_
    funext _
    unfold runSum
    rw [Cert.Loss.runUpTo_first 0 (by decide) rfl, Finset.sum_singleton]
    rfl
  | n + 1, h => by
    have hN : cfg0.N = 32 := N_0
    have ih := scratch_after c n (Nat.lt_of_succ_lt h)
    by_cases h0 : (n + 1) % 16 = 0
    · have h1 : ¬(n + 1) % 16 = 15 := by omega
      rw [outsAt0_A m c ⟨n + 1, h⟩ h0 h1]
      dsimp only
      refine (Pieces.scratch_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0) (fun h' => h1 ((hcond0_1 ⟨n + 1, h⟩).mp h'))
        (iblk m c 0 ⟨n + 1, h⟩) (iblk m c 1 ⟨n + 1, h⟩)).trans ?_
      refine (Payload.step_first (iblk m c 0 ⟨n + 1, h⟩) (iblk m c 1 ⟨n + 1, h⟩)).trans ?_
      funext _
      unfold runSum
      rw [Cert.Loss.runUpTo_first (n + 1) (by omega) h0, Finset.sum_singleton]
      rfl
    · by_cases h1 : (n + 1) % 16 = 15
      · rw [outsAt0_C m c ⟨n + 1, h⟩ h0 h1]
        dsimp only
        refine (Pieces.scratch_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun h' => h0 ((hcond0_0 ⟨n + 1, h⟩).mp h')) ((hcond0_1 ⟨n + 1, h⟩).mpr h1)
          (iblk m c 0 ⟨n + 1, h⟩) (iblk m c 1 ⟨n + 1, h⟩) (outsAt0 m c n (Nat.lt_of_succ_lt h)).2).trans ?_
        refine (Payload.step_next (iblk m c 0 ⟨n + 1, h⟩) (iblk m c 1 ⟨n + 1, h⟩) _ (runSum m c n) ih).trans ?_
        funext _
        unfold runSum
        rw [Cert.Loss.sum_runUpTo_succ _ n (by omega) h0]
        rfl
      · rw [outsAt0_B m c ⟨n + 1, h⟩ h0 h1]
        dsimp only
        refine (Pieces.scratch_middle (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun h' => h0 ((hcond0_0 ⟨n + 1, h⟩).mp h')) (fun h' => h1 ((hcond0_1 ⟨n + 1, h⟩).mp h'))
          (iblk m c 0 ⟨n + 1, h⟩) (iblk m c 1 ⟨n + 1, h⟩) (outsAt0 m c n (Nat.lt_of_succ_lt h)).2).trans ?_
        refine (Payload.step_next (iblk m c 0 ⟨n + 1, h⟩) (iblk m c 1 ⟨n + 1, h⟩) _ (runSum m c n) ih).trans ?_
        funext _
        unfold runSum
        rw [Cert.Loss.sum_runUpTo_succ _ n (by omega) h0]
        rfl

/-- At the last point of a half the output block is filled with the half's complete sum. -/
theorem output_after (c : Dev nD) (t : Fin cfg0.N) (h1 : t.val % 16 = 15) :
    (outsAt0 m c t.val t.isLt).1 = fun _ => runSum m c t.val := by
  have h0 : ¬t.val % 16 = 0 := by omega
  have hs := scratch_after m c t.val t.isLt
  rw [outsAt0_C m c t h0 h1] at hs ⊢
  dsimp only at hs ⊢
  rw [Pieces.scratch_last (F := Ideal) c (grid0.coords t) (ms0_0 t) (hs0_0 t) (ms0_1 t) (hs0_1 t)
    (ms0_2 t) (hs0_2 t) scM0_0 (Memref.isWhole_whole _) (fun h' => h0 ((hcond0_0 t).mp h')) ((hcond0_1 t).mpr h1)
    (iblk m c 0 t) (iblk m c 1 t) (outsAt0 m c (t.val - 1) (Nat.lt_of_le_of_lt (Nat.sub_le _ _) t.isLt)).2] at hs
  refine (Pieces.output_last (F := Ideal) c (grid0.coords t) (ms0_0 t) (hs0_0 t) (ms0_1 t) (hs0_1 t)
    (ms0_2 t) (hs0_2 t) scM0_0 (Memref.isWhole_whole _) (fun h' => h0 ((hcond0_0 t).mp h')) ((hcond0_1 t).mpr h1)
    (iblk m c 0 t) (iblk m c 1 t) (outsAt0 m c (t.val - 1) (Nat.lt_of_le_of_lt (Nat.sub_le _ _) t.isLt)).2).trans ?_
  funext y
  refine (Payload.fill_apply _ y (ix2 0 0)).trans ?_
  rw [hs]

end Cert.KernelIdeal.Acc

end
-- ==== Proof.Final.lean ====
/-
  The output array after the grid has run.

  The output has sixteen rows in two blocks of eight. Block `q` is written back once, at the last point `16 q + 15` of
  half `q`, filled with that half's complete sum. The two blocks cover the array, so every element of rows 0–7 ends at
  the first half's sum and every element of rows 8–15 at the second half's.
-/
import proofs.«120981_j29695403885106_2_alg».proof.Proof.Accumulate

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

/-- What the output array ends holding: row `r` lies in block `r / 8`, which holds the sum of half `r / 8`. -/
def outArray (c : Dev nD) : Buf (Elt Ideal) ((c : Thread nD τ).loc main_v0) :=
  fun i => Acc.runSum m c (16 * ((i 0).val / 8) + 15)

/-- An element whose row lies in block `q` holds half `q`'s sum. -/
theorem outArray_apply (c : Dev nD) (i : S16x128.Idx) (q : ℕ) (h : (i 0).val / 8 = q) :
    outArray m c i = Acc.runSum m c (16 * q + 15) := by
  subst h; rfl

/-- The output's block index at a point: the point's half along the rows, zero along the columns. -/
theorem out_index : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- Cutting a constant block leaves the constant. -/
theorem cut_const {α : Type} (i : grid0.Coords) (s : α) : (cfg0.win 2).cut i (fun _ => s) = fun _ => s := rfl

/-- What a write-back writes is the block of `outArray` it covers. -/
theorem flushed_eq (c : Dev nD) (t : Fin cfg0.N) (hf : (cfg0.win 2).flush t = true) :
    (dats m 0 c).flushed 2 t = ((cfg0.win 2).blk t).view.read (Elt Ideal) (outArray m c) := by
  have h15 : t.val % 16 = 15 := (flush0_2 t).mp hf
  show (cfg0.win 2).cut (grid0.coords t) ((dats m 0 c).after 2 t) = _
  rw [after0_2, Acc.output_after m c t h15, cut_const]
  funext y
  rw [View.read_apply]
  show Acc.runSum m c t.val = outArray m c (((cfg0.win 2).blk t).view.emb y)
  have hy : (y 0).val < 8 := (y 0).isLt
  have hrow : ((((cfg0.win 2).blk t).view.emb y) 0).val = win0_2.index t (0 : Fin 2) * 8 + 1 * (y 0).val := rfl
  rw [outArray_apply m c _ (t.val / 16) (by rw [hrow, (out_index t).1]; omega)]
  congr 1
  omega

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every element of the array lies in the block some write-back writes: the one of its row's half. -/
theorem covered (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  refine ⟨⟨16 * ((i 0).val / 8) + 15, by rw [hN]; omega⟩, ?_, ?_⟩
  · exact (flush0_2 _).mpr (by dsimp only; omega)
  · rw [mem_blk]
    intro a
    obtain ⟨e0, e1⟩ := out_index ⟨16 * ((i 0).val / 8) + 15, by rw [hN]; omega⟩
    dsimp only at e0
    match a with
    | ⟨0, _⟩ =>
      show win0_2.index _ (0 : Fin 2) * 8 ≤ (i 0).val ∧ (i 0).val < win0_2.index _ (0 : Fin 2) * 8 + 8
      rw [e0]; omega
    | ⟨1, _⟩ =>
      show win0_2.index _ (1 : Fin 2) * 128 ≤ (i 1).val ∧ (i 1).val < win0_2.index _ (1 : Fin 2) * 128 + 128
      rw [e1]; omega

/-- After the run the output array is `outArray`. -/
theorem final_out (c : Dev nD) : (dats m 0 c).arrAt 2 cfg0.N = outArray m c :=
  (dats m 0 c).arrAt_eq_of_cover 2 (outArray m c) (flushed_eq m c) (covered)

end Cert.KernelIdeal.Final

end
-- ==== Proof.Result.lean ====
/-
  The kernel's program to its end: the loss.

  After the grid the program reads element (0, 0) of the output (the first half's sum) and element (8, 0) (the second
  half's), adds them and divides by 2²⁵, the number of elements. This module reads that result off the run of the
  whole program and states the run with its result named.
-/
import proofs.«120981_j29695403885106_2_alg».proof.Proof.Final
import Idealize.ShloMosaic.Lib.StableHlo.Run
import Idealize.ShloMosaic.Lib.Pipeline.FrameSuffix

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The loss as the kernel's program computes it: the two halves' sums added, divided by the element count. -/
def lossValue (c : Dev nD) : EReal :=
  Ideal.div (Acc.runSum m c 15 + Acc.runSum m c 31) (Ideal.ofBits .f32 0x4C000000#32)

/-- The output array as a 16 × 128 array of extended reals. -/
def outVals (c : Dev nD) : S16x128.Idx → EReal := Final.outArray m c

/-- An element of the output array, by the half its row lies in. -/
theorem outVals_at (c : Dev nD) (i : S16x128.Idx) (n : ℕ) (hn : 16 * ((i 0).val / 8) + 15 = n) :
    outVals m c i = Acc.runSum m c n := by
  subst hn; rfl

/-- The slice at row 0, column 0 reads the first half's sum. -/
theorem slice_first (c : Dev nD) (j : S1x1.Idx) :
    extractStridedSlice S1x1 ![0, 0] (outVals m c) slices_S16x128_S1x1_0_0 j = Acc.runSum m c 15 := by
  have h0 := idx2_lt0 j
  unfold extractStridedSlice
  refine outVals_at m c _ 15 ?_
  show 16 * ((0 + (j 0).val) / 8) + 15 = 15
  omega

/-- The slice at row 8, column 0 reads the second half's sum. -/
theorem slice_second (c : Dev nD) (j : S1x1.Idx) :
    extractStridedSlice S1x1 ![8, 0] (outVals m c) slices_S16x128_S1x1_8_0 j = Acc.runSum m c 31 := by
  have h0 := idx2_lt0 j
  unfold extractStridedSlice
  refine outVals_at m c _ 31 ?_
  show 16 * ((8 + (j 0).val) / 8) + 15 = 31
  omega

/-- The program's result buffer after the operations that follow the grid: the loss. -/
theorem result_value (c : Dev nD) :
    Pipeline.afterTail₀ cfgs (dats m) 0 (V0 m) [hostOps1] c main_v6 = fun _ => lossValue m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v0)
      = outVals m c :=
    (Pipeline.withArrays_arr spec0 launch0.win.arr_inj c _ _ 2).trans (Final.final_out m c)
  rw [hw]
  funext i
  show Ideal.div
      (extractStridedSlice S1x1 ![0, 0] (outVals m c) slices_S16x128_S1x1_0_0 (Shape.reshapeEquiv shapeCasts_S1x1_S_ i)
        + extractStridedSlice S1x1 ![8, 0] (outVals m c) slices_S16x128_S1x1_8_0 (Shape.reshapeEquiv shapeCasts_S1x1_S_ i))
      (Ideal.ofBits .f32 0x4C000000#32) = _
  rw [slice_first, slice_second]
  rfl

/-- The result buffer is no array of the grid's windows, so the run's post speaks of it directly. -/
theorem result_mem : main_v6 ∈ Pipeline.restRefs sig (cfgs 0).spec :=
  Pipeline.mem_restRefs_of main_v6 rfl (fun w => by fin_cases w <;> decide)

/-- The run of the kernel's program: it terminates with its result at the loss and its arguments unchanged. -/
theorem run : θ_run defs (onTc (τ := τ) (main (F := Ideal))) ⟨m, fun _ => 0, ρ⟩ fun r => ∀ c : Dev nD,
      r.2.mem ((c.tc : Thread nD τ).loc main_v6) = (fun _ => lossValue m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 result_mem).trans (result_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Result

end
-- ==== Proof.Bridge.lean ====
/-
  The two halves' sums are the sum over the whole array.

  Point `t` reads rows `128 t … 128 t + 127` of the norms and of the labels (all 8192 columns), so its block sum is the
  sum of the loss elements over those rows. The sixteen points of each half, the two halves, and the 128 rows of each
  block enumerate every row once: the two complete running sums add up to the sum of the loss elements over the array.
-/
import proofs.«120981_j29695403885106_2_alg».proof.Proof.Accumulate

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ)

/-- The input blocks' indices at a point: block row `t`, block column 0, for the norms and for the labels. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The norms' block at point `t` reads the norms at rows `128 t + y₀`. -/
theorem norms_block (c : Dev nD) (t : Fin 32) (ht : t.val < cfg0.N) (y : S128x8192.Idx) :
    (iblk m c 0 ⟨t.val, ht⟩ : Vec Ideal S128x8192 .f32) y = m ((c : Thread nD τ).loc main_arg0) (Cert.Loss.blockIdx t y) := by
  unfold iblk
  rw [View.read_apply]
  show V m c main_arg0 (((cfg0.win 0).blk ⟨t.val, ht⟩).view.emb y) = m ((c : Thread nD τ).loc main_arg0) _
  rw [V_main_arg0]
  congr 1
  funext a
  apply Fin.ext
  obtain ⟨e0', e1, -, -⟩ := in_index ⟨t.val, ht⟩
  have e0 : win0_0.index ⟨t.val, ht⟩ (0 : Fin 2) = t.val := e0'
  match a with
  | ⟨0, _⟩ =>
    show win0_0.index ⟨t.val, ht⟩ (0 : Fin 2) * 128 + 1 * (y 0).val = 128 * t.val + (y 0).val
    rw [e0]; omega
  | ⟨1, _⟩ =>
    show win0_0.index ⟨t.val, ht⟩ (1 : Fin 2) * 8192 + 1 * (y 1).val = (y 1).val
    rw [e1]; omega

/-- The labels' block at point `t` reads the labels at the same positions. -/
theorem labels_block (c : Dev nD) (t : Fin 32) (ht : t.val < cfg0.N) (y : S128x8192.Idx) :
    (iblk m c 1 ⟨t.val, ht⟩ : Vec Ideal S128x8192 .i32) y = m ((c : Thread nD τ).loc main_arg1) (Cert.Loss.blockIdx t y) := by
  unfold iblk
  rw [View.read_apply]
  show V m c main_arg1 (((cfg0.win 1).blk ⟨t.val, ht⟩).view.emb y) = m ((c : Thread nD τ).loc main_arg1) _
  rw [V_main_arg1]
  congr 1
  funext a
  apply Fin.ext
  obtain ⟨-, -, e0', e1⟩ := in_index ⟨t.val, ht⟩
  have e0 : win0_1.index ⟨t.val, ht⟩ (0 : Fin 2) = t.val := e0'
  match a with
  | ⟨0, _⟩ =>
    show win0_1.index ⟨t.val, ht⟩ (0 : Fin 2) * 128 + 1 * (y 0).val = 128 * t.val + (y 0).val
    rw [e0]; omega
  | ⟨1, _⟩ =>
    show win0_1.index ⟨t.val, ht⟩ (1 : Fin 2) * 8192 + 1 * (y 1).val = (y 1).val
    rw [e1]; omega

/-- The two halves' complete sums add up to the sum of the loss elements over the whole array. -/
theorem total_eq (c : Dev nD) :
    Acc.runSum m c 15 + Acc.runSum m c 31
      = ∑ j : S4096x8192.Idx, Cert.Loss.elem (m ((c : Thread nD τ).loc main_arg0) j) (m ((c : Thread nD τ).loc main_arg1) j) := by
  unfold Acc.runSum
  rw [Cert.Loss.sum_two_runs,
    Cert.Loss.sum_blocks (fun j => Cert.Loss.elem (m ((c : Thread nD τ).loc main_arg0) j) (m ((c : Thread nD τ).loc main_arg1) j))]
  refine Finset.sum_congr rfl fun t _ => ?_
  unfold Acc.blockSums Acc.blockSum
  refine Finset.sum_congr rfl fun y _ => ?_
  rw [norms_block, labels_block]

end Cert.KernelIdeal.Bridge

end
-- ==== Proof.RefValue.lean ====
/-
  The reference, read at the extended reals.

  The reference multiplies the weight into the norm and into the label separately, subtracts, squares, adds all
  4096 × 8192 elements to zero and divides by the number of elements (2²⁵, the same word the kernel's program divides by).
-/
import proofs.«120981_j29695403885106_2_alg».proof.Proof.Gen.ReferenceIdeal.Read
import proofs.«120981_j29695403885106_2_alg».proof.Proof.Spec

noncomputable section

open scoped BigOperators

namespace Cert.ReferenceIdeal.RefValue

open Cert.ReferenceIdeal Cert.ReferenceIdeal.Read Idealize.ShloMosaic

/-- One element of the array the reference sums is the reference's spelling of a loss element. -/
theorem square_apply (x0 : (⟨S4096x8192, .f32⟩ : BufTy).Contents (Elt Ideal)) (x1 : (⟨S4096x8192, .i32⟩ : BufTy).Contents (Elt Ideal))
    (j : S4096x8192.Idx) : val_main_v11 (F := Ideal) x0 x1 j = Cert.Loss.elemRef (x0 j) (x1 j) := by
  rw [val_main_v11_apply, val_main_v10_apply, val_main_v8_apply, val_main_v9_apply, val_main_v7_apply, val_main_v6_apply,
    val_main_v2_apply, val_main_v1_apply, val_main_c_apply, val_main_call1_v0_apply, val_main_cst_2_apply, val_main_v5_apply,
    val_main_v4_apply, val_main_v3_apply, val_main_c_0_apply, val_main_call0_v0_apply, val_main_cst_apply,
    val_main_call0_v1_apply, val_main_cst_1_apply, val_main_v0_apply]
  rfl

/-- The reference's result: the sum of its elements over the whole array, divided by the element count. -/
theorem result_apply (x0 : (⟨S4096x8192, .f32⟩ : BufTy).Contents (Elt Ideal)) (x1 : (⟨S4096x8192, .i32⟩ : BufTy).Contents (Elt Ideal))
    (i : S_.Idx) : val_main_v13 (F := Ideal) x0 x1 i
      = Ideal.div (∑ j : S4096x8192.Idx, Cert.Loss.elemRef (x0 j) (x1 j)) (Ideal.ofBits .f32 0x4C000000#32) := by
  rw [val_main_v13_apply, val_main_v12_apply, val_main_cst_3_apply, val_main_cst_4_apply]
  simp only [Ideal.hostDivf_def, Ideal.ofBits_def, Ideal.ofBits_zero_f32, zero_add]
  exact congrArg (fun s => Ideal.div s (Ideal.ofBits .f32 0x4C000000#32)) (Finset.sum_congr rfl fun j _ => square_apply x0 x1 j)

end Cert.ReferenceIdeal.RefValue

end
-- ==== Proof.Finite.lean ====
/-
  From the precondition to real numbers.

  The precondition says that every norm's absolute value is below plus infinity. An extended real whose absolute
  value `max x (−x)` is below plus infinity is neither infinity, hence a real number.
-/
import proofs.«120981_j29695403885106_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Pre_finite_inputs.Finite

open Idealize.ShloMosaic Idealize.ShloMosaic.ValueIdx Cert.Pre_finite_inputs

instance : Subsingleton S_.Idx := ⟨fun a b => funext fun d => d.elim0⟩

/-- The bound of the comparison is plus infinity. -/
theorem bound_top : Ideal.ofBits .f32 0x7F800000#32 = (⊤ : EReal) := by
  simp [Ideal.ofBits, Ideal.ieee]

/-- An extended real whose absolute value compares below plus infinity is a real number. -/
theorem real_of_abs_lt_top (x : EReal)
    (h : Ideal.cmp .olt (max x (-x)) (Ideal.ofBits .f32 0x7F800000#32) = 1#1) : ∃ r : ℝ, x = (r : EReal) := by
  rw [bound_top] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- Under the precondition every norm is a real number. -/
theorem real_of_pre [Facts] (x0 : FVec Ideal S4096x8192 .f32) (x1 : IVec S4096x8192 32)
    (h : fn (F := Ideal) x0 x1 = fun _ => 1#1) (j : S4096x8192.Idx) : ∃ r : ℝ, x0 j = (r : EReal) := by
  have e := congrFun h ix0
  dsimp only [fn] at e
  have hj := Host.reduce_andi_all _ _ _ _ _ e j
  have hb : broadcastInDim S4096x8192 ![] Facts.bcast_S_S4096x8192 (constant (F := Ideal) S_ .f32 0x7F800000#32) j
      = Ideal.ofBits .f32 0x7F800000#32 :=
    broadcastInDim_apply _ Facts.bcast_S_S4096x8192 _ j (fun a => a.elim0) (fun a => a.elim0)
  refine real_of_abs_lt_top (x0 j) ?_
  rw [← hb]
  exact hj

end Cert.Pre_finite_inputs.Finite

end
-- ==== Proof.lean ====
/-
  A weighted squared-error loss: `mean((w(l) · (x − l))²)` over 4096 × 8192 norms `x` and integer labels `l`, the weight
  `w(l)` being 5 on label 1, 3 on label 2 and 1 otherwise.

  The kernel walks 32 blocks of 128 rows in two halves of sixteen. Each half keeps a running sum of its blocks' sums in a
  one-element scratch and writes it into one block of a 16 × 128 output at its last point; the program then adds the two
  halves' sums and divides by the 2²⁵ elements. The reference forms `w·x − w·l`, squares, adds everything at once and
  divides by the same count.

  Over the extended reals the two agree when every norm is a real number, which is the precondition: on reals
  `w·(x − l) = w·x − w·l`, and regrouping a sum of extended reals never changes it. The steps, one module each:
  the arithmetic of one element and the regrouping of the sum (Spec); what one run of the body leaves, read back
  (Pieces), and its arithmetic at an index (Payload); the running sum by induction over the grid (Accumulate); the output
  array (Final) and the program's result (Result); the blocks' rows (Bridge); the reference read index by index
  (RefValue); real numbers from the precondition (Finite). The frames of the two kernel programs are the generated ones,
  the reference's is its generated run with the result dropped, and the idealization rewrote nothing.
-/
import proofs.«120981_j29695403885106_2_alg».proof.Defs
import proofs.«120981_j29695403885106_2_alg».proof.Proof.Gen.Kernel
import proofs.«120981_j29695403885106_2_alg».proof.Proof.Gen.Kernel.Skeleton
import proofs.«120981_j29695403885106_2_alg».proof.Proof.Gen.Kernel.Launch
import proofs.«120981_j29695403885106_2_alg».proof.Proof.Gen.Kernel.Points
import proofs.«120981_j29695403885106_2_alg».proof.Proof.Gen.Kernel.Frame
import proofs.«120981_j29695403885106_2_alg».proof.Proof.Gen.KernelIdeal
import proofs.«120981_j29695403885106_2_alg».proof.Proof.Gen.KernelIdeal.Skeleton
import proofs.«120981_j29695403885106_2_alg».proof.Proof.Gen.KernelIdeal.Launch
import proofs.«120981_j29695403885106_2_alg».proof.Proof.Gen.KernelIdeal.Points
import proofs.«120981_j29695403885106_2_alg».proof.Proof.Gen.KernelIdeal.Frame
import proofs.«120981_j29695403885106_2_alg».proof.Proof.Gen.ReferenceIdeal
import proofs.«120981_j29695403885106_2_alg».proof.Proof.Gen.ReferenceIdeal.Run
import proofs.«120981_j29695403885106_2_alg».proof.Proof.Gen.ReferenceIdeal.Read
import proofs.«120981_j29695403885106_2_alg».proof.Proof.Gen.Pre_finite_inputs
import proofs.«120981_j29695403885106_2_alg».proof.Proof.Result
import proofs.«120981_j29695403885106_2_alg».proof.Proof.Bridge
import proofs.«120981_j29695403885106_2_alg».proof.Proof.RefValue
import proofs.«120981_j29695403885106_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss: the kernel's at the two halves' sums added and divided, which is the sum of the loss
    elements over the whole array divided by the count; the reference's at the sum of its own spelling of the elements
    divided by the same count, and on real norms the spellings agree. -/
theorem algebraic : Cert.algebraic_KernelIdeal_ReferenceIdeal := by
  intro m ρ m' ρ' hpre hagree
  refine ⟨fun c => fun _ => Cert.KernelIdeal.Result.lossValue m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext i
  rw [Cert.ReferenceIdeal.RefValue.result_apply]
  unfold Cert.KernelIdeal.Result.lossValue
  dsimp only
  rw [Cert.KernelIdeal.Bridge.total_eq]
  refine congrArg (fun s => Ideal.div s (Ideal.ofBits .f32 0x4C000000#32)) (Finset.sum_congr rfl fun j _ => ?_)
  obtain ⟨r, hr⟩ := Cert.Pre_finite_inputs.Finite.real_of_pre _ _ (hpre c) j
  rw [hr]
  exact Cert.Loss.elemRef_eq_elem r _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
